-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3 : Shape := ⟨2, ![50000, 3]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_v28 : IVec S_ 1) (main_v33 : IVec S_ 1) : IVec S_ 1 :=
  let main_v34 : IVec S_ 1 := andi main_v28 main_v33
  main_v34

def fn_part1 {F : FTy → Type} [FloatOps F] (main_arg2 : IVec S2x800000 32) (main_arg5 : FVec F S64x1 .f32) (main_arg6 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : IVec S1x800000 32 := (extractStridedSlice S1x800000 ![0, 0] · slices_S2x800000_S1x800000_0_0) main_arg2
  let main_v30 : IVec S800000 32 := shapeCast S800000 main_v29 shapeCasts_S1x800000_S800000
  let main_c_10 : IVec S_ 32 := constantI S_ 32 0#32
  let main_v31 : IVec S800000 32 := broadcastInDim S800000 ![] bcast_S_S800000 main_c_10
  let main_v32 : IVec S800000 1 := cmpi .sge main_v30 main_v31
  let main_c_11 : IVec S_ 1 := constantI S_ 1 1#1
  let main_v33 : IVec S_ 1 := (fun x v => Host.reduce IntOp.andi x v reducesTo_S800000_S_d0 h_S_) main_v32 main_c_11
  fn_part2 (F := F) main_v28 main_v33

def fn {F : FTy → Type} [FloatOps F] (main_arg0 : FVec F S50000x64 .f32) (main_arg1 : FVec F S50000x3 .f32) (main_arg2 : IVec S2x800000 32) (main_arg3 : FVec F S64x64 .f32) (main_arg4 : FVec F S64 .f32) (main_arg5 : FVec F S64x1 .f32) (main_arg6 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg5 main_arg6 main_v13 main_v16
-- ==== Kernel.lean ====
abbrev S50000x64 : Shape := ⟨2, ![50000, 64]⟩
abbrev S50000x3 : Shape := ⟨2, ![50000, 3]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S1x64 : Shape := ⟨2, ![1, 64]⟩
abbrev S1x1 : Shape := ⟨2, ![1, 1]⟩
abbrev S50000x1 : Shape := ⟨2, ![50000, 1]⟩
abbrev S10000x64 : Shape := ⟨2, ![10000, 64]⟩
abbrev S10000x1 : Shape := ⟨2, ![10000, 1]⟩
abbrev S_ : Shape := ⟨0, ![]⟩
abbrev S800000x1 : Shape := ⟨2, ![800000, 1]⟩
abbrev S800000x64 : Shape := ⟨2, ![800000, 64]⟩
abbrev S800000x3 : Shape := ⟨2, ![800000, 3]⟩

abbrev nBuf : Space → Nat
  | .hbm => 72
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S2x800000, .i32⟩
  | .hbm, ⟨3, _⟩ => ⟨S64x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S1x64, .f32⟩
  | .hbm, ⟨12, _⟩ => ⟨S1x1, .f32⟩
  | .hbm, ⟨13, _⟩ => ⟨S50000x64, .f32⟩
  | .hbm, ⟨14, _⟩ => ⟨S50000x1, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x3, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x3, .f32⟩
  | .hbm, ⟨51, _⟩ => ⟨S800000x3, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S50000x64, .f32⟩
  | .hbm, ⟨61, _⟩ => ⟨S800000x3, .f32⟩
  | .hbm, ⟨62, _⟩ => ⟨S800000x3, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S50000x3, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S64x1, .f32⟩
  | .local _ .vmem, ⟨5, _⟩ => ⟨S1x1, .f32⟩
  | .local _ .vmem, ⟨6, _⟩ => ⟨S10000x64, .f32⟩
  | .local _ .vmem, ⟨7, _⟩ => ⟨S10000x64, .f32⟩
  | .local _ .vmem, ⟨8, _⟩ => ⟨S10000x1, .f32⟩
  | .local _ .vmem, ⟨9, _⟩ => ⟨S10000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  shapeCasts_S1_S1x1 : S1.ShapeCasts S1x1
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x3_0_1 : S800000x1.BroadcastsInDim S800000x3 (![0, 1] : Fin 2 → Fin S800000x3.rank)
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  gather_S50000x64_S800000x1_S800000x64_1_0_n_n_0_1_164_wf : GatherDims.WF S50000x64 S800000x1 S800000x64 [1] [0] [] [0] [] 1 ![1, 64]
  gather_S50000x1_S800000x1_S800000x1_1_0_n_n_0_1_11_wf : GatherDims.WF S50000x1 S800000x1 S800000x1 [1] [0] [] [0] [] 1 ![1, 1]
  gather_S50000x3_S800000x1_S800000x3_1_0_n_n_0_1_13_wf : GatherDims.WF S50000x3 S800000x1 S800000x3 [1] [0] [] [0] [] 1 ![1, 3]
  scatter_S50000x64_S800000x1_S800000x64_1_0_0_1_wf : ScatterDims.WF S50000x64 S800000x1 S800000x64 [1] [0] [0] 1
  scatter_S50000x3_S800000x1_S800000x3_1_0_0_1_wf : ScatterDims.WF S50000x3 S800000x1 S800000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .f32 = 32 ∨ (Rect.block (s := S50000x64) S10000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x1.size a ≤ S50000x1.size a
  hwx0_6 : ∀ i : grid0.Coords, EltTy.bits .f32 = 32 ∨ (Rect.block (s := S50000x1) S10000x1.size (cc0_transform_6 i) (hinb0_6 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S10000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S10000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x64 : Shape := ⟨2, ![50000, 64]⟩
abbrev S50000x3 : Shape := ⟨2, ![50000, 3]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x3 : Shape := ⟨2, ![800000, 3]⟩
abbrev S1x64 : Shape := ⟨2, ![1, 64]⟩
abbrev S1x1 : Shape := ⟨2, ![1, 1]⟩

abbrev nBuf : Space → Nat
  | .hbm => 65
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S2x800000, .i32⟩
  | .hbm, ⟨3, _⟩ => ⟨S64x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x3, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x3, .f32⟩
  | .hbm, ⟨38, _⟩ => ⟨S800000x3, .f32⟩
  | .hbm, ⟨39, _⟩ => ⟨S800000x64, .f32⟩
  | .hbm, ⟨40, _⟩ => ⟨S1x64, .f32⟩
  | .hbm, ⟨41, _⟩ => ⟨S800000x64, .f32⟩
  | .hbm, ⟨42, _⟩ => ⟨S800000x64, .f32⟩
  | .hbm, ⟨43, _⟩ => ⟨S_, .f32⟩
  | .hbm, ⟨44, _⟩ => ⟨S800000x64, .f32⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S50000x64, .f32⟩
  | .hbm, ⟨51, _⟩ => ⟨S800000x1, .f32⟩
  | .hbm, ⟨52, _⟩ => ⟨S1x1, .f32⟩
  | .hbm, ⟨53, _⟩ => ⟨S800000x1, .f32⟩
  | .hbm, ⟨54, _⟩ => ⟨S800000x1, .f32⟩
  | .hbm, ⟨55, _⟩ => ⟨S_, .f32⟩
  | .hbm, ⟨56, _⟩ => ⟨S800000x1, .f32⟩
  | .hbm, ⟨57, _⟩ => ⟨S800000x1, .f32⟩
  | .hbm, ⟨58, _⟩ => ⟨S800000x3, .f32⟩
  | .hbm, ⟨59, _⟩ => ⟨S800000x3, .f32⟩
  | .hbm, ⟨60, _⟩ => ⟨S_, .f32⟩
  | .hbm, ⟨61, _⟩ => ⟨S50000x3, .f32⟩
  | .hbm, ⟨62, _⟩ => ⟨S800000x1, .i32⟩
  | .hbm, ⟨63, _⟩ => ⟨S50000x3, .f32⟩
  | .hbm, ⟨64, _⟩ => ⟨S50000x3, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_cst : Ref sig .tc := ⟨.hbm, 43, rfl⟩
abbrev main_call0_v0 : Ref sig .tc := ⟨.hbm, 44, rfl⟩
abbrev main_v30 : Ref sig .tc := ⟨.hbm, 45, rfl⟩
abbrev main_cst : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call1_cst : Ref sig .tc := ⟨.hbm, 55, rfl⟩
abbrev main_call1_v0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  gather_S50000x64_S800000x1_S800000x64_1_0_n_n_0_1_164_wf : GatherDims.WF S50000x64 S800000x1 S800000x64 [1] [0] [] [0] [] 1 ![1, 64]
  gather_S50000x3_S800000x1_S800000x3_1_0_n_n_0_1_13_wf : GatherDims.WF S50000x3 S800000x1 S800000x3 [1] [0] [] [0] [] 1 ![1, 3]
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S800000x64_S64x1_S800000x1_1_0_0_1_n_n_wf : DotDims.WF S800000x64 S64x1 S800000x1 [1] [0] [0] [1] [] []
  scatter_S50000x3_S800000x1_S800000x3_1_0_0_1_wf : ScatterDims.WF S50000x3 S800000x1 S800000x3 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibDenseLayer.lean ====
/-
  A dense layer on the extended reals, and its reading at an entry on the matrix unit.

  The specification (namespace Cert.Bridge.Spec): for a matrix A with rows p and features k, weights W and a bias b,
  the unclamped layer's entry (p, q) is the sum over k of A[p, k] · W[k, q], plus b[q]; a hidden layer clamps that entry
  below at the zero word's value. Row p of either depends on row p of A alone, so re-indexing the rows of the input
  re-indexes the rows of the output (by unfolding): a block of rows can be computed on its own. Any row count, any
  widths.

  The reading (namespace Cert.Bridge.LayerAt): a matrix unit's product of an M × K by a K × N operand into a zero
  accumulator, plus a [1, N] bias row spread over the M rows, read at entry (p, q), is the unclamped layer over the
  operands' entries; with a clamp against a splat of the zero word it is the hidden layer; and followed by the change
  of float format that usually comes next (the identity on the extended reals) it is, as a whole matrix, the hidden
  layer of the operands' matrices, which is the form that lets consecutive layers be chained by congruence. Nothing
  here assumes finiteness: only the reading of a sum at its index.
-/
import proofs.«158914_j86208583565931_2_alg».proof.Proof.LibMatmul
import Idealize.ShloMosaic.PureOps.Ideal
import Idealize.ShloMosaic.Lib.ValueIdx
import Idealize.ShloMosaic.Lib.ValueLayout

noncomputable section

open scoped BigOperators

namespace Cert.Bridge.Spec

open Idealize.ShloMosaic

variable {M M' K N : Nat}

/-- The clamp's floor: the extended real the zero word of f32 denotes. -/
abbrev floor0 : EReal := Ideal.ofBits .f32 0x00000000#32

/-- The unclamped layer: entry (p, q) is the contraction of row p of A with column q of W, plus b[q]. -/
def head (A : Fin M → Fin K → EReal) (W : Fin K → Fin N → EReal) (b : Fin N → EReal) (p : Fin M) (q : Fin N) : EReal :=
  (∑ k : Fin K, A p k * W k q) + b q

/-- A hidden layer: the unclamped layer's entry, clamped below at the floor. -/
def layer (A : Fin M → Fin K → EReal) (W : Fin K → Fin N → EReal) (b : Fin N → EReal) (p : Fin M) (q : Fin N) : EReal :=
  max (head A W b p q) floor0

/-- Row p of a layer's output is a function of row p of its input alone: re-indexing the rows commutes with the layer. -/
theorem head_rows (σ : Fin M' → Fin M) (A : Fin M → Fin K → EReal) (W : Fin K → Fin N → EReal) (b : Fin N → EReal) :
    head (fun r => A (σ r)) W b = fun r => head A W b (σ r) := rfl

/-- The same for a hidden layer: the clamp acts entry by entry. -/
theorem layer_rows (σ : Fin M' → Fin M) (A : Fin M → Fin K → EReal) (W : Fin K → Fin N → EReal) (b : Fin N → EReal) :
    layer (fun r => A (σ r)) W b = fun r => layer A W b (σ r) := rfl

end Cert.Bridge.Spec

namespace Cert.Bridge.LayerAt

open Idealize.ShloMosaic Idealize.ShloMosaic.ValueIdx Cert.Bridge

variable {M K N : Nat}

/-- A matrix as a function of its two coordinates. (On the extended reals every element type is the same
    set, so the matrix is taken as a plain function of its index.) -/
abbrev mat (A : (⟨2, ![M, K]⟩ : Shape).Idx → EReal) : Fin M → Fin K → EReal := fun p k => A (ix2 p k)

/-- A one-row matrix as a function of its column. -/
abbrev row (b : (⟨2, ![1, N]⟩ : Shape).Idx → EReal) : Fin N → EReal := fun q => b (ix2 (0 : Fin 1) q)

/-- The unclamped layer on the matrix unit: product into zero plus the spread bias row. -/
theorem head_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    addf (FloatOps.matmul (DotDims.plain M K N) prec A W (constant ⟨2, ![M, N]⟩ .f32 0x00000000#32))
        (broadcastTo ⟨2, ![M, N]⟩ b hb) (ix2 p q)
      = Spec.head (mat A) (mat W) (row b) p q := by
  rw [addf_apply, LibMatmul.matmul_zero_apply, broadcastTo_1b_ab_apply]
  rfl

/-- A hidden layer on the matrix unit: the unclamped layer, clamped against a splat of the zero word. The splat's
    scalar and the specification's floor are the same extended real, the one the zero word denotes. -/
theorem layer_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32)) (ix2 p q)
      = Spec.layer (mat A) (mat W) (row b) p q := by
  rw [maximumf_apply, head_apply, broadcast_apply]
  rfl

/-- The same, for the whole matrix at once and after the change of format that follows a hidden layer (the identity on
    the extended reals): the next layer's input matrix is the specification's layer of this layer's operands. -/
theorem layer_mat {φ₁ φ₂ ψ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (hψ : ψ.bits < FTy.f32.bits) :
    mat (truncf ψ (maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32))) hψ)
      = Spec.layer (mat A) (mat W) (row b) :=
  funext fun p => funext fun q => layer_apply prec A W b hb p q

end Cert.Bridge.LayerAt

end
-- ==== Proof.LayerArray.lean ====
/-
  A dense layer as one array. For a matrix A of M rows and K features, weights W (K by N) and a bias vector b of
  length N, the array whose entry (p, q) is the hidden layer's entry: the sum over k of A[p, k] * W[k, q], plus b[q],
  clamped below at zero. Stated once for any extents, so that the per-node messages (N = 64) and the per-node scalar
  weights (N = 1) of a message-passing step are the same definition at two widths.
-/
import proofs.«158914_j86208583565931_2_alg».proof.Proof.LibDenseLayer

noncomputable section

namespace Cert.Bridge.LayerArray

open Idealize.ShloMosaic Idealize.ShloMosaic.ValueIdx Cert.Bridge

variable {M K N : Nat}

/-- A vector as a function of its one coordinate. -/
abbrev vec (b : (⟨1, ![N]⟩ : Shape).Idx → EReal) : Fin N → EReal := fun q => b (ix1 q)

/-- The hidden layer of every row of A, as an array indexed by (row, output feature). -/
def rows (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun j => Spec.layer (LayerAt.mat A) (LayerAt.mat W) (vec b) (j 0) (j 1)

/-- Its entry at explicit coordinates. -/
theorem rows_apply (A : (⟨2, ![M, K]⟩ : Shape).Idx → EReal) (W : (⟨2, ![K, N]⟩ : Shape).Idx → EReal)
    (b : (⟨1, ![N]⟩ : Shape).Idx → EReal) (p : Fin M) (q : Fin N) :
    rows A W b (ix2 p q) = Spec.layer (LayerAt.mat A) (LayerAt.mat W) (vec b) p q := rfl

end Cert.Bridge.LayerArray

end
-- ==== Proof.Results.lean ====
/-
  The message-passing step's two results, as functions of its arguments, in the spelling of the host operations that
  compute them.

  The int32 edge list has two rows of 800000 entries: row 0 holds each edge's receiving node, row 1 its sending
  node. An index v is read the way array indexing reads it: a negative v stands for v + 50000 (`wrap`); a gather
  then clamps what it is given into the array. Every node n has a message, the hidden layer of its feature row with
  (W_h, b_h), and a scalar weight, the hidden layer of its feature row with (W_x, b_x). The new features add to
  every node the messages of the senders of its incoming edges; the new coordinates add to every node, for each
  incoming edge, the coordinate difference (receiver minus sender) scaled by the sender's weight. Both sums are
  accumulations over the edges at the receiving node's index.
-/
import proofs.«158914_j86208583565931_2_alg».proof.Proof.Gen.KernelIdeal
import proofs.«158914_j86208583565931_2_alg».proof.Proof.LayerArray
import Idealize.ShloMosaic.PureOps.Ideal
import Idealize.ShloMosaic.PureOps.Contract
import Idealize.ShloMosaic.Lib.ValueIdx
import Idealize.ShloMosaic.Lib.Affine

noncomputable section

namespace Cert.KernelIdeal.Results

open Cert.KernelIdeal Cert.KernelIdeal.Facts₀ Idealize.ShloMosaic Idealize.ShloMosaic.ValueIdx Cert.Bridge

/-- Row 0 of the edge list, as a vector: each edge's receiving node. -/
def receivers (ei : IVec S2x800000 32) : IVec S800000 32 :=
  shapeCast S800000 (extractStridedSlice S1x800000 ![0, 0] ei slices_S2x800000_S1x800000_0_0) shapeCasts_S1x800000_S800000

/-- Row 1 of the edge list, as a vector: each edge's sending node. -/
def senders (ei : IVec S2x800000 32) : IVec S800000 32 :=
  shapeCast S800000 (extractStridedSlice S1x800000 ![1, 0] ei slices_S2x800000_S1x800000_1_0) shapeCasts_S1x800000_S800000

/-- An index read the way array indexing reads it: a negative one counts from the end. -/
def wrap (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- A vector of indices as one index vector per edge. -/
def perEdge (v : IVec S800000 32) : IVec S800000x1 32 := broadcastInDim S800000x1 ![0] bcast_S800000_S800000x1_0 v

/-- Wrapping changes nothing where every index is non-negative. -/
theorem wrap_of_nonneg (v : IVec S800000 32) (hv : ∀ i, 0 ≤ (v i).toInt) : wrap v = v := by
  funext i
  unfold wrap
  rw [select_apply]
  have hc : cmpi .slt v (broadcastInDim S800000 ![] bcast_S_S800000 (constantI S_ 32 0#32)) i = 0#1 := by
    refine eq_zero_of_ne_one fun h1 => ?_
    have hlt := IntOp.cmpi_slt.1 h1
    have h0 : (broadcastInDim S800000 ![] bcast_S_S800000 (constantI S_ 32 0#32) i).toInt = 0 := rfl
    have := hv i
    omega
  rw [hc, select_zero]

/-- The new node features: each node's features plus the messages of its incoming edges' senders. -/
def newFeatures (h : FVec Ideal S50000x64 .f32) (ei : IVec S2x800000 32) (Wh : FVec Ideal S64x64 .f32)
    (bh : FVec Ideal S64 .f32) : FVec Ideal S50000x64 .f32 :=
  Host.scatterAdd scatter_S50000x64_S800000x1_S800000x64_1_0_0_1 h (perEdge (receivers ei))
    (Host.gather gather_S50000x64_S800000x1_S800000x64_1_0_n_n_0_1_164 (LayerArray.rows h Wh bh)
      (perEdge (wrap (senders ei))))

/-- The new node coordinates: each node's coordinates plus, per incoming edge, the difference of the receiver's and
    the sender's coordinates scaled by the sender's weight. -/
def newCoords (h : FVec Ideal S50000x64 .f32) (x : FVec Ideal S50000x3 .f32) (ei : IVec S2x800000 32)
    (Wx : FVec Ideal S64x1 .f32) (bx : FVec Ideal S1 .f32) : FVec Ideal S50000x3 .f32 :=
  Host.scatterAdd scatter_S50000x3_S800000x1_S800000x3_1_0_0_1 x (perEdge (receivers ei))
    (mulf
      (subf (Host.gather gather_S50000x3_S800000x1_S800000x3_1_0_n_n_0_1_13 x (perEdge (wrap (receivers ei))))
        (Host.gather gather_S50000x3_S800000x1_S800000x3_1_0_n_n_0_1_13 x (perEdge (wrap (senders ei)))))
      (broadcastInDim S800000x3 ![0, 1] bcast_S800000x1_S800000x3_0_1
        (Host.gather gather_S50000x1_S800000x1_S800000x1_1_0_n_n_0_1_11 (LayerArray.rows h Wx bx)
          (perEdge (wrap (senders ei))))))

end Cert.KernelIdeal.Results

end
-- ==== Proof.KernelEntry.lean ====
/-
  What the host operations after the region find in the buffers they read. After the region every array a window
  stages holds what the frame computed for it (an input window's array is unchanged; an output window's array is the
  blocks written back), and every other buffer holds what it held when the region was entered, which for the two
  index vectors is what the host operations before the region wrote: rows 0 and 1 of the edge list, flattened.
-/
import proofs.«158914_j86208583565931_2_alg».proof.Proof.Gen.KernelIdeal.Frame
import proofs.«158914_j86208583565931_2_alg».proof.Proof.Results
import Idealize.ShloMosaic.Lib.StableHlo.Run
import Idealize.ShloMosaic.PureOps.Ideal

set_option maxRecDepth 16384

noncomputable section

namespace Cert.KernelIdeal.Entry

open Cert.KernelIdeal Cert.KernelIdeal.Gen Cert.KernelIdeal.Results Idealize.ShloMosaic Idealize.ShloMosaic.TcCoe
open Idealize.SL.Sem Idealize.ShloMosaic.StableHlo

variable (m : (ℓ : Loc nD τ sig) → Buf (Elt Ideal) ℓ)

/-- The node features: an input window's array, unchanged by the region and by the host operations before it. -/
theorem features (c : Dev nD) :
    Pipeline.withArrays (cfgs 0).spec c (V0 m c) (fun w => (dats (F := Ideal) m 0 c).arrAt w (cfgs 0).N) (Proc.devRef .tc main_arg0) = m ((c.tc : Thread nD τ).loc main_arg0) :=
  (Pipeline.withArrays_arr spec0 launch0.win.arr_inj c _ _ 0).trans
    (((dats m 0 c).arrAt_in 0 rfl _).trans ((A_eq m c 0).trans (V_main_arg0 m c)))

/-- The node coordinates: no window stages them and no host operation before the region writes them. -/
theorem coords (c : Dev nD) :
    Pipeline.withArrays (cfgs 0).spec c (V0 m c) (fun w => (dats (F := Ideal) m 0 c).arrAt w (cfgs 0).N) (Proc.devRef .tc main_arg1) = m ((c.tc : Thread nD τ).loc main_arg1) :=
  (Pipeline.withArrays_of_ne _ c (V0 m c) _ main_arg1
    (by exact (by decide : ∀ w, Pipeline.arrRef spec0 w ≠ main_arg1))).trans (V_main_arg1 m c)

/-- The receivers' vector: written before the region from row 0 of the edge list. -/
theorem receivers_at (c : Dev nD) :
    Pipeline.withArrays (cfgs 0).spec c (V0 m c) (fun w => (dats (F := Ideal) m 0 c).arrAt w (cfgs 0).N) (Proc.devRef .tc main_v1) = receivers (m ((c.tc : Thread nD τ).loc main_arg2)) := by
  rw [Pipeline.withArrays_of_ne _ c (V0 m c) _ main_v1
    (by exact (by decide : ∀ w, Pipeline.arrRef spec0 w ≠ main_v1))]
  show StableHlo.after hostOps0 (fun b => m (c, b)) (Proc.devRef .tc main_v1) = _
  after_results
  rfl

/-- The senders' vector: written before the region from row 1 of the edge list. -/
theorem senders_at (c : Dev nD) :
    Pipeline.withArrays (cfgs 0).spec c (V0 m c) (fun w => (dats (F := Ideal) m 0 c).arrAt w (cfgs 0).N) (Proc.devRef .tc main_v3) = senders (m ((c.tc : Thread nD τ).loc main_arg2)) := by
  rw [Pipeline.withArrays_of_ne _ c (V0 m c) _ main_v3
    (by exact (by decide : ∀ w, Pipeline.arrRef spec0 w ≠ main_v3))]
  show StableHlo.after hostOps0 (fun b => m (c, b)) (Proc.devRef .tc main_v3) = _
  after_results
  rfl

/-- The first output window's array: what the frame computed for it. -/
theorem messages_at (c : Dev nD) :
    Pipeline.withArrays (cfgs 0).spec c (V0 m c) (fun w => (dats (F := Ideal) m 0 c).arrAt w (cfgs 0).N) (Proc.devRef .tc main_v6_0) = (dats (F := Ideal) m 0 c).arrAt 5 (cfgs 0).N :=
  Pipeline.withArrays_arr spec0 launch0.win.arr_inj c _ _ 5

/-- The second output window's array: what the frame computed for it. -/
theorem weights_at (c : Dev nD) :
    Pipeline.withArrays (cfgs 0).spec c (V0 m c) (fun w => (dats (F := Ideal) m 0 c).arrAt w (cfgs 0).N) (Proc.devRef .tc main_v6_1) = (dats (F := Ideal) m 0 c).arrAt 6 (cfgs 0).N :=
  Pipeline.withArrays_arr spec0 launch0.win.arr_inj c _ _ 6

end Cert.KernelIdeal.Entry

end
-- ==== Proof.KernelTailFeatures.lean ====
/-
  The kernel's first result, read off the host operations after the region: the node features with, accumulated at
  each edge's (wrapped) receiver index, the row of the region's first output array gathered at the edge's (wrapped,
  clamped) sender index. The operations are read in order; each buffer they read is what the region and the host
  operations before it left there.
-/
import proofs.«158914_j86208583565931_2_alg».proof.Proof.KernelEntry

set_option maxRecDepth 16384

noncomputable section

namespace Cert.KernelIdeal.Tail

open Cert.KernelIdeal Cert.KernelIdeal.Gen Cert.KernelIdeal.Results Idealize.ShloMosaic Idealize.ShloMosaic.TcCoe
open Idealize.SL.Sem Idealize.ShloMosaic.StableHlo Cert.Bridge

variable (m : (ℓ : Loc nD τ sig) → Buf (Elt Ideal) ℓ)

set_option maxHeartbeats 4000000 in
theorem features_result (c : Dev nD) :
    Pipeline.afterTail₀ cfgs (dats (F := Ideal) m) 0 (V0 m) [hostOps1] c main_v42
      = (Host.scatterAdd scatter_S50000x64_S800000x1_S800000x64_1_0_0_1 (m ((c.tc : Thread nD τ).loc main_arg0))
          (perEdge (wrap (receivers (m ((c.tc : Thread nD τ).loc main_arg2)))))
          (Host.gather gather_S50000x64_S800000x1_S800000x64_1_0_n_n_0_1_164
            ((dats (F := Ideal) m 0 c).arrAt 5 (cfgs 0).N)
            (perEdge (wrap (senders (m ((c.tc : Thread nD τ).loc main_arg2))))))
          : FVec Ideal S50000x64 .f32) := by
  unfold Pipeline.afterTail₀
  show StableHlo.after hostOps1 _ (Proc.devRef .tc main_v42) = _
  after_results_simp
  rw [Entry.features m c, Entry.receivers_at m c, Entry.senders_at m c, Entry.messages_at m c]
  rfl

end Cert.KernelIdeal.Tail

end
-- ==== Proof.KernelTailCoords.lean ====
/-
  The kernel's second result, read off the host operations after the region: the node coordinates with, accumulated
  at each edge's (wrapped) receiver index, the difference of the receiver's and the sender's gathered coordinates
  times the entry of the region's second output array gathered at the sender's index, spread over the three
  coordinates.
-/
import proofs.«158914_j86208583565931_2_alg».proof.Proof.KernelEntry

set_option maxRecDepth 16384

noncomputable section

namespace Cert.KernelIdeal.Tail

open Cert.KernelIdeal Cert.KernelIdeal.Gen Cert.KernelIdeal.Results Idealize.ShloMosaic Idealize.ShloMosaic.TcCoe
open Idealize.SL.Sem Idealize.ShloMosaic.StableHlo Cert.Bridge

variable (m : (ℓ : Loc nD τ sig) → Buf (Elt Ideal) ℓ)

set_option maxHeartbeats 4000000 in
theorem coords_result (c : Dev nD) :
    Pipeline.afterTail₀ cfgs (dats (F := Ideal) m) 0 (V0 m) [hostOps1] c main_v51
      = (Host.scatterAdd scatter_S50000x3_S800000x1_S800000x3_1_0_0_1 (m ((c.tc : Thread nD τ).loc main_arg1))
          (perEdge (wrap (receivers (m ((c.tc : Thread nD τ).loc main_arg2)))))
          (mulf
            (subf
              (Host.gather gather_S50000x3_S800000x1_S800000x3_1_0_n_n_0_1_13 (m ((c.tc : Thread nD τ).loc main_arg1))
                (perEdge (wrap (receivers (m ((c.tc : Thread nD τ).loc main_arg2))))))
              (Host.gather gather_S50000x3_S800000x1_S800000x3_1_0_n_n_0_1_13 (m ((c.tc : Thread nD τ).loc main_arg1))
                (perEdge (wrap (senders (m ((c.tc : Thread nD τ).loc main_arg2)))))))
            (broadcastInDim S800000x3 ![0, 1] bcast_S800000x1_S800000x3_0_1
              (Host.gather gather_S50000x1_S800000x1_S800000x1_1_0_n_n_0_1_11
                ((dats (F := Ideal) m 0 c).arrAt 6 (cfgs 0).N)
                (perEdge (wrap (senders (m ((c.tc : Thread nD τ).loc main_arg2))))))))
          : FVec Ideal S50000x3 .f32) := by
  unfold Pipeline.afterTail₀
  show StableHlo.after hostOps1 _ (Proc.devRef .tc main_v51) = _
  after_results_simp
  rw [Entry.coords m c, Entry.receivers_at m c, Entry.senders_at m c, Entry.weights_at m c]
  rfl

end Cert.KernelIdeal.Tail

end
-- ==== Proof.NodeLayer.lean ====
/-
  What the kernel's one region leaves in its two output arrays.

  The region runs over five points; point t handles node rows 10000 t … 10000 t + 9999. At each point the body stores,
  for its block of rows, the hidden layer of the node features with the message weights and bias (64 columns), and the
  hidden layer of the same rows with the scalar weights and bias (one column): the features times the weights, plus the
  bias, clamped below at zero. Row r of a hidden layer depends on row r of the features alone, so the blocks are the
  restrictions of ONE array each: the hidden layer of every node row. The five blocks tile the 50000 rows, so after the
  region each output array is that hidden layer.

  The steps: the body's stored value at a block entry is the layer of the loaded blocks; each loaded block is read where
  the point's rectangle says (the feature block at rows 10000 t + p, the weights whole, the bias row as the host's
  one-row reshape of the bias vector); so a point writes back its block of the whole array's layer; every row r is in
  the block of point r / 10000.
-/
import proofs.«158914_j86208583565931_2_alg».proof.Proof.Gen.KernelIdeal.Frame
import proofs.«158914_j86208583565931_2_alg».proof.Proof.LayerArray
import Idealize.ShloMosaic.Lib.Pipeline.Value
import Idealize.ShloMosaic.Lib.ValueLayout
import Idealize.ShloMosaic.Lib.Tactic

noncomputable section

namespace Cert.KernelIdeal.NodeValue

open Cert.KernelIdeal Cert.KernelIdeal.Gen Idealize.ShloMosaic Idealize.ShloMosaic.TcCoe Idealize.SL.Sem
open Idealize.ShloMosaic.ValueIdx Cert.Bridge
open Idealize.ShloMosaic.Pipeline (Dat)

variable (m : (ℓ : Loc nD τ sig) → Buf (Elt Ideal) ℓ)

/-- The zero offsets of a whole-block access, as a constant function. -/
theorem origin_offsets : (![0, 0] : Fin 2 → Nat) = fun _ => 0 := funext fun a => by fin_cases a <;> rfl

/-- Two layers agree at an entry when the row of the input, the column of the weights and the bias entry agree. -/
theorem layer_congr {M M' K N : Nat} {A : Fin M → Fin K → EReal} {A' : Fin M' → Fin K → EReal}
    {W W' : Fin K → Fin N → EReal} {b b' : Fin N → EReal} {p : Fin M} {p' : Fin M'} {q : Fin N}
    (hA : ∀ k, A p k = A' p' k) (hW : ∀ k, W k q = W' k q) (hb : b q = b' q) :
    Spec.layer A W b p q = Spec.layer A' W' b' p' q := by
  unfold Spec.layer Spec.head
  rw [hb, Finset.sum_congr rfl fun k _ => by rw [hA k, hW k]]

/-- The body's first stored value at an entry: the hidden layer of the loaded blocks. -/
theorem messages_payload (x0 : Vec Ideal S10000x64 .f32) (x1 : Vec Ideal S64x64 .f32) (x2 : Vec Ideal S1x64 .f32)
    (p : Fin 10000) (q : Fin 64) :
    k0_pay1 x0 x1 x2 (ix2 p q) = Spec.layer (LayerAt.mat x0) (LayerAt.mat x1) (LayerAt.row x2) p q := by
  have e : shapeCast S1x64 x2 shapeCasts_S1x64_S1x64 = x2 := shapeCast_self x2 _
  unfold k0_pay1
  rw [e]
  exact LayerAt.layer_apply none x0 x1 x2 broadcasts_S1x64_S10000x64 p q

/-- The printed index maps over the grid: the node-row windows move with the point, the others stay at the origin. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The node-feature block at point t is rows 10000 t … 10000 t + 9999 of the feature array. -/
theorem features_block (c : Dev nD) (t : Fin cfg0.N) (y : S10000x64.Idx) (i : S50000x64.Idx)
    (h0 : (i 0).val = 10000 * t.val + (y 0).val) (h1 : (i 1).val = (y 1).val) :
    (iblk m c 0 t : Vec Ideal S10000x64 .f32) y = (m ((c.tc : Thread nD τ).loc main_arg0) : S50000x64.Idx → EReal) i := by
  obtain ⟨e0, e1, -⟩ := block_indices t
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 2) * 10000 + 1 * (y 0).val = (i 0).val; rw [e0, h0]; omega
  | ⟨1, _⟩ => show win0_0.index t (1 : Fin 2) * 64 + 1 * (y 1).val = (i 1).val; rw [e1, h1]; omega

/-- The message weights are staged whole: their block at any point is the weight array. -/
theorem message_weights_block (c : Dev nD) (t : Fin cfg0.N) (y : S64x64.Idx) :
    (iblk m c 1 t : Vec Ideal S64x64 .f32) y = (m ((c.tc : Thread nD τ).loc main_arg3) : S64x64.Idx → EReal) y := by
  obtain ⟨-, -, e0, e1, -⟩ := block_indices t
  unfold iblk
  rw [View.read_apply]
  show V m c main_arg3 _ = m (c.tc.loc main_arg3) _
  rw [V_main_arg3]
  refine congrArg _ (funext fun a => Fin.ext ?_)
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega

/-- The bias row the region finds is the host's reshape of the bias vector to one row. -/
theorem message_bias_row (c : Dev nD) :
    (V m c main_v4 : S1x64.Idx → EReal) = shapeCast S1x64 (m ((c.tc : Thread nD τ).loc main_arg4)) shapeCasts_S64_S1x64 := by
  show StableHlo.after hostOps0 (fun b => m (c, b)) (Proc.devRef .tc main_v4) = _
  after_results
  rfl

/-- The bias row is staged whole: its block at any point, at column q, is the bias vector's entry q. -/
theorem message_bias_block (c : Dev nD) (t : Fin cfg0.N) (q : Fin 64) :
    (iblk m c 2 t : Vec Ideal S1x64 .f32) (ix2 (0 : Fin 1) q) = (m ((c.tc : Thread nD τ).loc main_arg4) : S64.Idx → EReal) (ix1 q) := by
  obtain ⟨-, -, -, -, e0, e1, -⟩ := block_indices t
  unfold iblk
  rw [View.read_apply]
  show V m c main_v4 _ = _
  rw [message_bias_row]
  refine Eq.trans (congrArg _ (funext fun a => Fin.ext ?_)) (shapeCast_a_1a_apply _ shapeCasts_S64_S1x64 (0 : Fin 1) q)
  match a with
  | ⟨0, _⟩ => show win0_2.index t (0 : Fin 2) * 1 + 1 * 0 = 0; rw [e0]
  | ⟨1, _⟩ => show win0_2.index t (1 : Fin 2) * 64 + 1 * q.val = q.val; rw [e1]; omega

/-- The body's first stored value at point t, at a block entry, is the hidden layer of the whole feature array at the
    array entry the block entry stands for: row 10000 t + (row inside the block), same column. -/
theorem messages_at (c : Dev nD) (t : Fin cfg0.N) (y : S10000x64.Idx) (i : S50000x64.Idx)
    (h0 : (i 0).val = 10000 * t.val + (y 0).val) (h1 : (i 1).val = (y 1).val) :
    k0_pay1 (iblk m c 0 t) (iblk m c 1 t) (iblk m c 2 t) y
      = LayerArray.rows (m ((c.tc : Thread nD τ).loc main_arg0)) (m ((c.tc : Thread nD τ).loc main_arg3))
          (m ((c.tc : Thread nD τ).loc main_arg4)) i := by
  obtain ⟨p, q, rfl⟩ : ∃ (p : Fin 10000) (q : Fin 64), y = ix2 p q := ⟨y 0, y 1, eq_ix2 y⟩
  obtain ⟨r, q', rfl⟩ : ∃ (r : Fin 50000) (q' : Fin 64), i = ix2 r q' := ⟨i 0, i 1, eq_ix2 i⟩
  have h0' : r.val = 10000 * t.val + p.val := h0
  obtain rfl : q' = q := Fin.ext h1
  refine (messages_payload (iblk m c 0 t) (iblk m c 1 t) (iblk m c 2 t) p q').trans ?_
  refine Eq.trans ?_ (LayerArray.rows_apply _ _ _ r q').symm
  exact layer_congr (fun k => features_block m c t (ix2 p k) (ix2 r k) h0' rfl)
    (fun k => message_weights_block m c t (ix2 k q')) (message_bias_block m c t q')

/-- What point t writes back to the message array is block t of the hidden layer of every node row. -/
theorem flushed_messages (c : Dev nD) (t : Fin cfg0.N) :
    (dats (F := Ideal) m 0 c).flushed 5 t
      = ((cfg0.win 5).blk t).view.read (Elt Ideal)
          (LayerArray.rows (m ((c.tc : Thread nD τ).loc main_arg0)) (m ((c.tc : Thread nD τ).loc main_arg3))
            (m ((c.tc : Thread nD τ).loc main_arg4))) := by
  show (cfg0.win 5).cut (grid0.coords t) ((dats m 0 c).after 5 t) = _
  rw [after0_5]
  unfold out0_5
  rw [View.canon_unit_zero origin_offsets]
  simp only [View.ld_unit_zero (S := S10000x64) origin_offsets, View.ld_unit_zero (S := S64x64) origin_offsets, View.ld_unit_zero (S := S1x64) origin_offsets]
  obtain ⟨-, -, -, -, -, -, -, -, -, -, e0, e1, -⟩ := block_indices t
  funext j
  rw [View.read_apply]
  refine messages_at m c t ((cfg0.win 5).xinj (grid0.coords t) j) (((cfg0.win 5).blk t).view.emb j) ?_ ?_
  · show win0_5.index t (0 : Fin 2) * 10000 + 1 * (j 0).val = 10000 * t.val + (j 0).val
    rw [e0]; omega
  · show win0_5.index t (1 : Fin 2) * 64 + 1 * (j 1).val = (j 1).val
    rw [e1]; omega

/-- An entry of the message array is in point t's block iff each coordinate is in the block's range on its axis. -/
theorem mem_messages_block (t : Fin cfg0.N) (i : S50000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v6_0).slice (win0_5.rect t)).set ↔ _
  rw [View.set_slice_whole, Rect.mem_set_unit]
  exact Iff.rfl

/-- Every entry of the message array is written back by some point: row r by point r / 10000. -/
theorem messages_cover (i : S50000x64.Idx) :
    ∃ t : Fin cfg0.N, (cfg0.win 5).flush t = true ∧ i ∈ ((cfg0.win 5).blk t).view.set := by
  have hN : grid0.N = 5 := N_0
  have hi0 : (i 0).val < 50000 := (i 0).isLt
  have hi1 : (i 1).val < 64 := (i 1).isLt
  let t : Fin cfg0.N := ⟨(i 0).val / 10000, by show (i 0).val / 10000 < grid0.N; omega⟩
  obtain ⟨-, -, -, -, -, -, -, -, -, -, e0, e1, -⟩ := block_indices t
  have ht : t.val = (i 0).val / 10000 := rfl
  refine ⟨t, flush0_5 t, ?_⟩
  rw [mem_messages_block]
  intro a
  match a with
  | ⟨0, _⟩ =>
    show win0_5.index t (0 : Fin 2) * 10000 ≤ (i 0).val ∧ (i 0).val < win0_5.index t (0 : Fin 2) * 10000 + 10000
    rw [e0, ht]; omega
  | ⟨1, _⟩ =>
    show win0_5.index t (1 : Fin 2) * 64 ≤ (i 1).val ∧ (i 1).val < win0_5.index t (1 : Fin 2) * 64 + 64
    rw [e1]; omega

/-- After the region the message array holds the hidden layer of every node row with the message weights and bias. -/
theorem node_messages (m : (ℓ : Loc nD τ sig) → Buf (Elt Ideal) ℓ) (c : Dev nD) :
    (dats (F := Ideal) m 0 c).arrAt 5 cfg0.N
      = LayerArray.rows (m ((c.tc : Thread nD τ).loc main_arg0)) (m ((c.tc : Thread nD τ).loc main_arg3)) (m ((c.tc : Thread nD τ).loc main_arg4)) :=
  (dats (F := Ideal) m 0 c).arrAt_eq_of_cover 5
    (LayerArray.rows (m ((c.tc : Thread nD τ).loc main_arg0)) (m ((c.tc : Thread nD τ).loc main_arg3)) (m ((c.tc : Thread nD τ).loc main_arg4)))
    (fun t _ => flushed_messages m c t) messages_cover

/-! ## The scalar weights: the same at one column -/

/-- The body's second stored value at an entry: the hidden layer of the loaded blocks, one column wide. -/
theorem weights_payload (x0 : Vec Ideal S10000x64 .f32) (x3 : Vec Ideal S64x1 .f32) (x4 : Vec Ideal S1x1 .f32)
    (p : Fin 10000) (q : Fin 1) :
    k0_pay2 x0 x3 x4 (ix2 p q) = Spec.layer (LayerAt.mat x0) (LayerAt.mat x3) (LayerAt.row x4) p q := by
  have e : shapeCast S1x1 x4 shapeCasts_S1x1_S1x1 = x4 := shapeCast_self x4 _
  unfold k0_pay2
  rw [e]
  exact LayerAt.layer_apply none x0 x3 x4 broadcasts_S1x1_S10000x1 p q

/-- The scalar weights are staged whole: their block at any point is the weight array. -/
theorem scalar_weights_block (c : Dev nD) (t : Fin cfg0.N) (y : S64x1.Idx) :
    (iblk m c 3 t : Vec Ideal S64x1 .f32) y = (m ((c.tc : Thread nD τ).loc main_arg5) : S64x1.Idx → EReal) y := by
  obtain ⟨-, -, -, -, -, -, e0, e1, -⟩ := block_indices t
  unfold iblk
  rw [View.read_apply]
  show V m c main_arg5 _ = m (c.tc.loc main_arg5) _
  rw [V_main_arg5]
  refine congrArg _ (funext fun a => Fin.ext ?_)
  match a with
  | ⟨0, _⟩ => show win0_3.index t (0 : Fin 2) * 64 + 1 * (y 0).val = (y 0).val; rw [e0]; omega
  | ⟨1, _⟩ => show win0_3.index t (1 : Fin 2) * 1 + 1 * (y 1).val = (y 1).val; rw [e1]; omega

/-- The scalar bias row the region finds is the host's reshape of the one-entry bias vector to one row. -/
theorem scalar_bias_row (c : Dev nD) :
    (V m c main_v5 : S1x1.Idx → EReal) = shapeCast S1x1 (m ((c.tc : Thread nD τ).loc main_arg6)) shapeCasts_S1_S1x1 := by
  show StableHlo.after hostOps0 (fun b => m (c, b)) (Proc.devRef .tc main_v5) = _
  after_results
  rfl

/-- The scalar bias row is staged whole: its block at any point, at column q, is the bias vector's entry q. -/
theorem scalar_bias_block (c : Dev nD) (t : Fin cfg0.N) (q : Fin 1) :
    (iblk m c 4 t : Vec Ideal S1x1 .f32) (ix2 (0 : Fin 1) q) = (m ((c.tc : Thread nD τ).loc main_arg6) : S1.Idx → EReal) (ix1 q) := by
  obtain ⟨-, -, -, -, -, -, -, -, e0, e1, -⟩ := block_indices t
  unfold iblk
  rw [View.read_apply]
  show V m c main_v5 _ = _
  rw [scalar_bias_row]
  refine Eq.trans (congrArg _ (funext fun a => Fin.ext ?_)) (shapeCast_a_1a_apply _ shapeCasts_S1_S1x1 (0 : Fin 1) q)
  match a with
  | ⟨0, _⟩ => show win0_4.index t (0 : Fin 2) * 1 + 1 * 0 = 0; rw [e0]
  | ⟨1, _⟩ => show win0_4.index t (1 : Fin 2) * 1 + 1 * q.val = q.val; rw [e1]; omega

/-- The body's second stored value at point t, at a block entry, is the one-column hidden layer of the whole feature
    array at the array entry the block entry stands for: row 10000 t + (row inside the block), same column. -/
theorem weights_at (c : Dev nD) (t : Fin cfg0.N) (y : S10000x1.Idx) (i : S50000x1.Idx)
    (h0 : (i 0).val = 10000 * t.val + (y 0).val) (h1 : (i 1).val = (y 1).val) :
    k0_pay2 (iblk m c 0 t) (iblk m c 3 t) (iblk m c 4 t) y
      = LayerArray.rows (m ((c.tc : Thread nD τ).loc main_arg0)) (m ((c.tc : Thread nD τ).loc main_arg5))
          (m ((c.tc : Thread nD τ).loc main_arg6)) i := by
  obtain ⟨p, q, rfl⟩ : ∃ (p : Fin 10000) (q : Fin 1), y = ix2 p q := ⟨y 0, y 1, eq_ix2 y⟩
  obtain ⟨r, q', rfl⟩ : ∃ (r : Fin 50000) (q' : Fin 1), i = ix2 r q' := ⟨i 0, i 1, eq_ix2 i⟩
  have h0' : r.val = 10000 * t.val + p.val := h0
  obtain rfl : q' = q := Fin.ext h1
  refine (weights_payload (iblk m c 0 t) (iblk m c 3 t) (iblk m c 4 t) p q').trans ?_
  refine Eq.trans ?_ (LayerArray.rows_apply _ _ _ r q').symm
  exact layer_congr (fun k => features_block m c t (ix2 p k) (ix2 r k) h0' rfl)
    (fun k => scalar_weights_block m c t (ix2 k q')) (scalar_bias_block m c t q')

/-- What point t writes back to the weight array is block t of the one-column hidden layer of every node row. -/
theorem flushed_weights (c : Dev nD) (t : Fin cfg0.N) :
    (dats (F := Ideal) m 0 c).flushed 6 t
      = ((cfg0.win 6).blk t).view.read (Elt Ideal)
          (LayerArray.rows (m ((c.tc : Thread nD τ).loc main_arg0)) (m ((c.tc : Thread nD τ).loc main_arg5))
            (m ((c.tc : Thread nD τ).loc main_arg6))) := by
  show (cfg0.win 6).cut (grid0.coords t) ((dats m 0 c).after 6 t) = _
  rw [after0_6]
  unfold out0_6
  rw [View.canon_unit_zero origin_offsets]
  simp only [View.ld_unit_zero (S := S10000x64) origin_offsets, View.ld_unit_zero (S := S64x1) origin_offsets, View.ld_unit_zero (S := S1x1) origin_offsets]
  obtain ⟨-, -, -, -, -, -, -, -, -, -, -, -, e0, e1⟩ := block_indices t
  funext j
  rw [View.read_apply]
  refine weights_at m c t ((cfg0.win 6).xinj (grid0.coords t) j) (((cfg0.win 6).blk t).view.emb j) ?_ ?_
  · show win0_6.index t (0 : Fin 2) * 10000 + 1 * (j 0).val = 10000 * t.val + (j 0).val
    rw [e0]; omega
  · show win0_6.index t (1 : Fin 2) * 1 + 1 * (j 1).val = (j 1).val
    rw [e1]; omega

/-- An entry of the weight array is in point t's block iff each coordinate is in the block's range on its axis. -/
theorem mem_weights_block (t : Fin cfg0.N) (i : S50000x1.Idx) :
    i ∈ ((cfg0.win 6).blk t).view.set ↔ ∀ a : Fin 2, win0_6.index t a * S10000x1.size a ≤ (i a).val
      ∧ (i a).val < win0_6.index t a * S10000x1.size a + S10000x1.size a := by
  show i ∈ ((View.whole main_v6_1).slice (win0_6.rect t)).set ↔ _
  rw [View.set_slice_whole, Rect.mem_set_unit]
  exact Iff.rfl

/-- Every entry of the weight array is written back by some point: row r by point r / 10000. -/
theorem weights_cover (i : S50000x1.Idx) :
    ∃ t : Fin cfg0.N, (cfg0.win 6).flush t = true ∧ i ∈ ((cfg0.win 6).blk t).view.set := by
  have hN : grid0.N = 5 := N_0
  have hi0 : (i 0).val < 50000 := (i 0).isLt
  have hi1 : (i 1).val < 1 := (i 1).isLt
  let t : Fin cfg0.N := ⟨(i 0).val / 10000, by show (i 0).val / 10000 < grid0.N; omega⟩
  obtain ⟨-, -, -, -, -, -, -, -, -, -, -, -, e0, e1⟩ := block_indices t
  have ht : t.val = (i 0).val / 10000 := rfl
  refine ⟨t, flush0_6 t, ?_⟩
  rw [mem_weights_block]
  intro a
  match a with
  | ⟨0, _⟩ =>
    show win0_6.index t (0 : Fin 2) * 10000 ≤ (i 0).val ∧ (i 0).val < win0_6.index t (0 : Fin 2) * 10000 + 10000
    rw [e0, ht]; omega
  | ⟨1, _⟩ =>
    show win0_6.index t (1 : Fin 2) * 1 ≤ (i 1).val ∧ (i 1).val < win0_6.index t (1 : Fin 2) * 1 + 1
    rw [e1]; omega

/-- After the region the weight array holds the one-column hidden layer of every node row with the scalar weights and bias. -/
theorem node_weights (m : (ℓ : Loc nD τ sig) → Buf (Elt Ideal) ℓ) (c : Dev nD) :
    (dats (F := Ideal) m 0 c).arrAt 6 cfg0.N
      = LayerArray.rows (m ((c.tc : Thread nD τ).loc main_arg0)) (m ((c.tc : Thread nD τ).loc main_arg5)) (m ((c.tc : Thread nD τ).loc main_arg6)) :=
  (dats (F := Ideal) m 0 c).arrAt_eq_of_cover 6
    (LayerArray.rows (m ((c.tc : Thread nD τ).loc main_arg0)) (m ((c.tc : Thread nD τ).loc main_arg5)) (m ((c.tc : Thread nD τ).loc main_arg6)))
    (fun t _ => flushed_weights m c t) weights_cover

end Cert.KernelIdeal.NodeValue

end
-- ==== Proof.RowDomain.lean ====
/-
  The certificate's precondition is a conjunction of one-bit words: "every float input is finite" for each float
  argument and, last, "every entry of row 0 of the int32 edge list is ≥ 0, signed". This module reads that last
  conjunct back: from the precondition at a device, each entry (0, e) of the edge list is non-negative as a signed
  integer. The float conjuncts are never opened; only the outer conjunctions are split.
-/
import proofs.«158914_j86208583565931_2_alg».proof.Defs
import proofs.«158914_j86208583565931_2_alg».proof.Proof.Gen.Pre_finite_inputs
import Idealize.ShloMosaic.Lib.ReduceAll
import Idealize.ShloMosaic.Lib.ValueIdx
import Idealize.ShloMosaic.Lib.Pipeline.Value

noncomputable section

namespace Cert.Bridge.RowDomain

open Idealize.ShloMosaic Idealize.SL.Sem
open Idealize.ShloMosaic.ValueIdx
open Cert.Pre_finite_inputs

/-- The scalar shape has one index. -/
private instance : Subsingleton S_.Idx := ⟨fun a b => funext fun d => d.elim0⟩

/-- Row 0 of the [2, 800000] array, flattened: the slice [0:1, :] reshaped to [800000] reads entry (0, e) at e. -/
private theorem row0_apply [Facts] (x : IVec S2x800000 32) (e : Fin 800000) :
    shapeCast S800000 ((extractStridedSlice S1x800000 ![0, 0] · Facts.slices_S2x800000_S1x800000_0_0) x)
        Facts.shapeCasts_S1x800000_S800000 (ix1 e)
      = x (ix2 (0 : Fin 2) e) := by
  refine (shapeCast_apply _ _ (ix1 e) (ix2 (0 : Fin 1) e) ?_).trans ?_
  · rw [Shape.rowMajor_val_two, Shape.rowMajor_val_one]
    show 0 * 800000 + e.val = e.val
    omega
  · refine extractStridedSlice_apply _ _ _ _ (ix2 (0 : Fin 2) e) (fun a => ?_)
    match a with
    | ⟨0, _⟩ => rfl
    | ⟨1, _⟩ => exact (Nat.zero_add e.val).symm

/-- The second half of the predicate: its value 1 makes every entry of row 0 non-negative. The last conjunct is an
    "all" (a reduction by "and" over the whole axis) of the signed comparison "entry ≥ 0" of the flattened row. -/
private theorem of_part1 [Facts] (a2 : IVec S2x800000 32) (a5 : FVec Ideal S64x1 .f32) (a6 : FVec Ideal S1 .f32)
    (v13 : IVec S_ 1) (v16 : IVec S64 1)
    (h : fn_part1 (F := Ideal) a2 a5 a6 v13 v16 = fun _ => 1#1) (e : Fin 800000) :
    0 ≤ (a2 (ix2 (0 : Fin 2) e)).toInt := by
  have h0 := congrFun h ix0
  dsimp only [fn_part1, fn_part2] at h0
  have h33 := (IntOp.andi_eq_one.1 h0).2
  have hel := Host.reduce_andi_all _ _ _ _ _ h33 (ix1 e)
  have hle := IntOp.cmpi_sge.1 hel
  rw [row0_apply a2 e] at hle
  exact hle

/-- The whole predicate: its first half only feeds two one-bit words into the second. -/
private theorem of_fn [Facts] (a0 : FVec Ideal S50000x64 .f32) (a1 : FVec Ideal S50000x3 .f32) (a2 : IVec S2x800000 32)
    (a3 : FVec Ideal S64x64 .f32) (a4 : FVec Ideal S64 .f32) (a5 : FVec Ideal S64x1 .f32) (a6 : FVec Ideal S1 .f32)
    (h : fn (F := Ideal) a0 a1 a2 a3 a4 a5 a6 = fun _ => 1#1) (e : Fin 800000) :
    0 ≤ (a2 (ix2 (0 : Fin 2) e)).toInt := by
  dsimp only [fn] at h
  exact of_part1 a2 a5 a6 _ _ h e

/-- THE PRECONDITION'S INDEX CONJUNCT DECODED: on every device, each entry of row 0 of the edge list is non-negative
    as a signed integer. -/
theorem row_nonneg
    (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m)
    (c : Dev Cert.KernelIdeal.nD) (e : Fin 800000) :
    0 ≤ ((m ((c.tc : Thread Cert.KernelIdeal.nD Cert.KernelIdeal.τ).loc Cert.KernelIdeal.main_arg2)
          : IVec Cert.KernelIdeal.S2x800000 32) (Idealize.ShloMosaic.ValueIdx.ix2 (0 : Fin 2) e)).toInt :=
  of_fn (a0 := _) (a1 := _) (a3 := _) (a4 := _) (a5 := _) (a6 := _) _ (hpre c) e

end Cert.Bridge.RowDomain

end
-- ==== Proof.KernelValue.lean ====
/-
  The kernel's run, with both results named: under the precondition every weakly fair execution terminates, the first
  result is the step's new features, the second its new coordinates, and the arguments end unchanged.

  The host operations after the region compute an accumulation at the WRAPPED receiver indices of rows gathered from
  the region's two output arrays. The region's arrays are the node-level hidden layers; and a receiver index that is
  non-negative, as the precondition says every one is, wraps to itself. So the accumulation lands where the step's
  definition puts it.
-/
import proofs.«158914_j86208583565931_2_alg».proof.Proof.KernelTailFeatures
import proofs.«158914_j86208583565931_2_alg».proof.Proof.KernelTailCoords
import proofs.«158914_j86208583565931_2_alg».proof.Proof.NodeLayer
import proofs.«158914_j86208583565931_2_alg».proof.Proof.RowDomain
import Idealize.ShloMosaic.Lib.Pipeline.Value

set_option maxRecDepth 16384

noncomputable section

namespace Cert.KernelIdeal.KernelValue

open Cert.KernelIdeal Cert.KernelIdeal.Gen Cert.KernelIdeal.Results Idealize.ShloMosaic Idealize.ShloMosaic.TcCoe
open Idealize.SL.Sem Idealize.ShloMosaic.ValueIdx Cert.Bridge

variable (m : (ℓ : Loc nD τ sig) → Buf (Elt Ideal) ℓ)

/-- The receivers' vector at edge e is entry (0, e) of the edge list. -/
theorem receivers_apply (ei : IVec S2x800000 32) (e : Fin 800000) :
    receivers ei (ix1 e) = ei (ix2 (0 : Fin 2) e) := by
  unfold receivers
  refine (shapeCast_apply _ _ (ix1 e) (ix2 (0 : Fin 1) e) ?_).trans ?_
  · rw [Shape.rowMajor_val_two, Shape.rowMajor_val_one]
    show 0 * 800000 + e.val = e.val
    omega
  · refine extractStridedSlice_apply _ _ _ _ (ix2 (0 : Fin 2) e) (fun a => ?_)
    match a with
    | ⟨0, _⟩ => rfl
    | ⟨1, _⟩ => exact (Nat.zero_add e.val).symm

/-- Under the precondition every receiver index is non-negative, so wrapping leaves the receivers' vector as it is. -/
theorem wrapped_receivers (hpre : Cert.Pre_KernelIdeal (hPre_finite_inputs := Cert.Pre_finite_inputs.Gen.facts) m)
    (c : Dev nD) : wrap (receivers (m ((c.tc : Thread nD τ).loc main_arg2))) = receivers (m ((c.tc : Thread nD τ).loc main_arg2)) := by
  refine wrap_of_nonneg _ fun i => ?_
  obtain ⟨e, rfl⟩ : ∃ e : Fin 800000, i = ix1 e := ⟨i 0, eq_ix1 i⟩
  rw [receivers_apply]
  exact Cert.Bridge.RowDomain.row_nonneg m hpre c e

/-- What the host operations after the region compute for the first result is the step's new features. -/
theorem features_value (hpre : Cert.Pre_KernelIdeal (hPre_finite_inputs := Cert.Pre_finite_inputs.Gen.facts) m)
    (c : Dev nD) :
    Host.scatterAdd scatter_S50000x64_S800000x1_S800000x64_1_0_0_1 (m ((c.tc : Thread nD τ).loc main_arg0))
        (perEdge (wrap (receivers (m ((c.tc : Thread nD τ).loc main_arg2)))))
        (Host.gather gather_S50000x64_S800000x1_S800000x64_1_0_n_n_0_1_164
          ((dats (F := Ideal) m 0 c).arrAt 5 cfg0.N) (perEdge (wrap (senders (m ((c.tc : Thread nD τ).loc main_arg2))))))
      = newFeatures (m ((c.tc : Thread nD τ).loc main_arg0)) (m ((c.tc : Thread nD τ).loc main_arg2)) (m ((c.tc : Thread nD τ).loc main_arg3)) (m ((c.tc : Thread nD τ).loc main_arg4)) := by
  rw [Cert.KernelIdeal.NodeValue.node_messages m c]
  unfold newFeatures
  rw [wrapped_receivers m hpre c]

/-- What the host operations after the region compute for the second result is the step's new coordinates. -/
theorem coords_value (hpre : Cert.Pre_KernelIdeal (hPre_finite_inputs := Cert.Pre_finite_inputs.Gen.facts) m)
    (c : Dev nD) :
    Host.scatterAdd scatter_S50000x3_S800000x1_S800000x3_1_0_0_1 (m ((c.tc : Thread nD τ).loc main_arg1))
        (perEdge (wrap (receivers (m ((c.tc : Thread nD τ).loc main_arg2)))))
        (mulf
          (subf
            (Host.gather gather_S50000x3_S800000x1_S800000x3_1_0_n_n_0_1_13 (m ((c.tc : Thread nD τ).loc main_arg1))
              (perEdge (wrap (receivers (m ((c.tc : Thread nD τ).loc main_arg2))))))
            (Host.gather gather_S50000x3_S800000x1_S800000x3_1_0_n_n_0_1_13 (m ((c.tc : Thread nD τ).loc main_arg1))
              (perEdge (wrap (senders (m ((c.tc : Thread nD τ).loc main_arg2)))))))
          (broadcastInDim S800000x3 ![0, 1] bcast_S800000x1_S800000x3_0_1
            (Host.gather gather_S50000x1_S800000x1_S800000x1_1_0_n_n_0_1_11
              ((dats (F := Ideal) m 0 c).arrAt 6 cfg0.N) (perEdge (wrap (senders (m ((c.tc : Thread nD τ).loc main_arg2))))))))
      = newCoords (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
  rw [Cert.KernelIdeal.NodeValue.node_weights m c]
  unfold newCoords
  -- the receivers appear wrapped in the gathers of both sides and unwrapped only in the definition's accumulation
  -- index: rewriting the wrapped vector everywhere makes the two sides one term
  rw [wrapped_receivers m hpre c]

/-- THE KERNEL'S RUN WITH ITS RESULTS NAMED. The frame run ends with every staged array at what the frame computed
    and every other buffer at what the host operations after the region leave there; the two results are read off
    those operations, the arguments as the frame certificate reads them. -/
theorem run (ρ : Dev nD → PrngReg)
    (hpre : Cert.Pre_KernelIdeal (hPre_finite_inputs := Cert.Pre_finite_inputs.Gen.facts) m) :
    θ_run defs (onTc (τ := τ) (main (F := Ideal))) ⟨m, fun _ => 0, ρ⟩ (fun r => ∀ c : Dev nD,
      r.2.mem ((c.tc : Thread nD τ).loc main_v42)
          = newFeatures (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v51)
          = newCoords (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v42 (Pipeline.mem_restRefs_of main_v42 (by decide) (by decide))).trans ((Tail.features_result m c).trans (features_value m hpre c)),
      ((h c).2 main_v51 (Pipeline.mem_restRefs_of main_v51 (by decide) (by decide))).trans ((Tail.coords_result m c).trans (coords_value m hpre c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c))),
      ((h c).2 main_arg6 (Pipeline.mem_restRefs_of main_arg6 (by decide) (by decide))).trans (W_main_arg6 m (dats m) c)⟩) (run_main m ρ)

end Cert.KernelIdeal.KernelValue

end
-- ==== Proof.LibRowGather.lean ====
/-
  A row gather read at an index. For an operand of N rows and C columns and one start index per result row
  (start indices of shape [E, 1]), the gather that collapses the row axis and keeps whole rows (what x[idx] lowers
  to for a two-dimensional x) reads, at result entry (e, q), the operand's entry (r, q), where r is the start index
  of row e read as a signed integer and clamped into [0, N - 1]. Any extents, any element type, any index width.
-/
import Idealize.ShloMosaic.PureOps.ShapeOps
import Idealize.ShloMosaic.Lib.ValueIdx

noncomputable section

namespace Cert.Bridge.RowGather

open Idealize.ShloMosaic Idealize.ShloMosaic.ValueIdx

variable {α : Type}

/-- The dimension numbers of a row gather: operand [N, C], start indices [E, 1], result [E, C]; the row axis is
    collapsed and addressed by the one component of the start index, the column axis is kept whole. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index addresses: the index read signed, clamped into [0, N - 1]. -/
def rowOf {N w : Nat} (hN : 0 < N) (v : BitVec w) : Fin N := ⟨min v.toInt.toNat (N - 1), by omega⟩

/-- The gather at (e, q) is the operand at (the clamped start index of row e, q). -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N C E wf) x idx (ix2 e q) = x (ix2 (rowOf hN (idx (ix2 e (0 : Fin 1)))) q) := by
  have hne : ¬ ((1 : Fin 2) = 0) := by decide
  -- the row coordinate: the clamped start; no batching coordinate, no offset on a collapsed axis
  have h0 : ((rowDims N C E wf).operandIdx (ix2 e q) idx 0).val = min (idx (ix2 e (0 : Fin 1))).toInt.toNat (N - 1) := by
    show (rowDims N C E wf).start (ix2 e q) idx 0 + (rowDims N C E wf).batchCoord (ix2 e q) 0
        + (rowDims N C E wf).offCoord (ix2 e q) 0 = _
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e q) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column coordinate: no start (the axis is not addressed), no batching, the result's own column as offset
  have h1 : ((rowDims N C E wf).operandIdx (ix2 e q) idx 1).val = q.val := by
    show (rowDims N C E wf).start (ix2 e q) idx 1 + (rowDims N C E wf).batchCoord (ix2 e q) 1
        + (rowDims N C E wf).offCoord (ix2 e q) 1 = _
    rw [GatherDims.batchCoord_eq_zero _ _ _ List.not_mem_nil]
    unfold GatherDims.start
    rw [dif_neg (show (1 : Fin 2) ∉ (rowDims N C E wf).startIndexMap from
      fun h => hne (List.mem_singleton.mp h))]
    unfold GatherDims.offCoord
    rw [dif_pos (show (1 : Fin 2) ∈ (rowDims N C E wf).sKept from
      (GatherDims.mem_sKept _ _).mpr ⟨fun h => hne (List.mem_singleton.mp h), List.not_mem_nil⟩)]
    simp only [Nat.zero_add, Nat.add_zero]
    rfl
  unfold Host.gather
  congr 1
  funext a
  refine Fin.ext ?_
  match a with
  | ⟨0, _⟩ => exact h0
  | ⟨1, _⟩ => exact h1

end Cert.Bridge.RowGather

end
-- ==== Proof.LibGatherLayer.lean ====
/-
  Three general facts behind "run a dense layer once per row, then gather rows" against "gather rows, then run the
  layer on the gathered rows", on the extended reals.

  (1) A row gather commutes with a dense layer. Row p of a layer's output depends on row p of its input alone, so
      gathering rows of the layer's output (by any start indices, clamped the same way on both sides because both
      operands have the same number of rows) is the layer of the gathered rows. Any extents; no finiteness: both
      sides are the same sum at every entry.
  (2) Accumulating updates into an array of zeros and adding the result to x is accumulating them into x: at each
      entry, x + (0 + s) = x + s, where s is the sum of the updates that land there. Addition on the extended reals
      is a commutative monoid, so nothing is assumed finite.
  (3) The host's dense layer is the layer as one array: a product G · W, plus an array holding b[q] at every (p, q),
      clamped against an array of the zero word, is the array whose entry (p, q) is the hidden layer's. Any extents.
-/
import proofs.«158914_j86208583565931_2_alg».proof.Proof.LibRowGather
import proofs.«158914_j86208583565931_2_alg».proof.Proof.LayerArray
import Idealize.ShloMosaic.PureOps.Contract
import Idealize.ShloMosaic.PureOps.Ideal

noncomputable section

namespace Cert.Bridge.MessagePassing

open Idealize.ShloMosaic Idealize.ShloMosaic.ValueIdx Cert.Bridge Cert.Bridge.RowGather

/-- Gathering rows of a layer's output is the layer of the gathered rows. -/
theorem gather_layer {N K C E w : Nat} (hN : 0 < N)
    (wfC : GatherDims.WF ⟨2, ![N, C]⟩ ⟨2, ![E, 1]⟩ ⟨2, ![E, C]⟩ [1] [0] [] [0] [] 1 ![1, C])
    (wfK : GatherDims.WF ⟨2, ![N, K]⟩ ⟨2, ![E, 1]⟩ ⟨2, ![E, K]⟩ [1] [0] [] [0] [] 1 ![1, K])
    (A : (⟨2, ![N, K]⟩ : Shape).Idx → EReal) (W : (⟨2, ![K, C]⟩ : Shape).Idx → EReal)
    (b : (⟨1, ![C]⟩ : Shape).Idx → EReal) (idx : IVec ⟨2, ![E, 1]⟩ w) :
    Host.gather (rowDims N C E wfC) (LayerArray.rows A W b) idx
      = LayerArray.rows (Host.gather (rowDims N K E wfK) A idx) W b := by
  funext j
  obtain ⟨e, q, rfl⟩ : ∃ (e : Fin E) (q : Fin C), j = ix2 e q := ⟨j 0, j 1, eq_ix2 j⟩
  rw [gather_rows_apply hN, LayerArray.rows_apply, LayerArray.rows_apply]
  have hrows : LayerAt.mat (Host.gather (rowDims N K E wfK) A idx)
      = fun r => LayerAt.mat A (rowOf hN (idx (ix2 r (0 : Fin 1)))) := by
    funext r k
    exact gather_rows_apply hN wfK A idx r k
  rw [hrows]
  exact (congrFun (congrFun (Spec.layer_rows (fun r => rowOf hN (idx (ix2 r (0 : Fin 1))))
    (LayerAt.mat A) (LayerAt.mat W) (LayerArray.vec b)) e) q).symm

/-- Adding x to an accumulation into zeros is the accumulation into x. -/
theorem add_scatter_zero {s si su : Shape} {w : Nat} {φ : FTy} (d : ScatterDims s si su)
    (x z : FVec Ideal s φ) (hz : ∀ i, z i = (0 : EReal)) (idx : IVec si w) (upd : FVec Ideal su φ) :
    addf x (Host.scatterAdd d z idx upd) = Host.scatterAdd d x idx upd := by
  funext i
  show x i + (z i + _) = x i + _
  rw [hz i, zero_add]

/-- The host's dense layer is the same array: a product of G (M by K) with W (K by N), plus an array B that holds
    b[q] at every entry (p, q), clamped against an array Z that holds the zero word's value everywhere. -/
theorem host_layer {M K N : Nat} (prec : Option ContractPrecision) (sched : HostSchedule)
    (G : FVec Ideal ⟨2, ![M, K]⟩ .f32) (W : FVec Ideal ⟨2, ![K, N]⟩ .f32) (B Z : FVec Ideal ⟨2, ![M, N]⟩ .f32)
    (b : (⟨1, ![N]⟩ : Shape).Idx → EReal) (hB : ∀ (p : Fin M) (q : Fin N), B (ix2 p q) = b (ix1 q))
    (hZ : ∀ j, Z j = Spec.floor0) :
    maximumf (addf (FloatOps.dotGeneral (DotDims.plain M K N) prec sched G W) B) Z = LayerArray.rows G W b := by
  funext j
  obtain ⟨p, q, rfl⟩ : ∃ (p : Fin M) (q : Fin N), j = ix2 p q := ⟨j 0, j 1, eq_ix2 j⟩
  rw [maximumf_apply, addf_apply, LibMatmul.dotGeneral_apply, hB, hZ, LayerArray.rows_apply]
  rfl

end Cert.Bridge.MessagePassing

end
-- ==== Proof.RefValue.lean ====
/-
  The reference's two results are the message-passing step's results.

  The reference gathers each edge's sender row, runs the dense layer on the 800000 gathered rows, accumulates the
  outcome into an array of zeros at the receivers' indices and adds the node array. Three facts turn that into the
  node-level form: adding x to an accumulation into zeros is the accumulation into x; the host's product plus bias,
  clamped at zero, of the gathered rows is the layer of the gathered rows; and the layer of gathered rows is the
  gather of the layer's rows, because row p of a layer depends on row p of its input alone. The coordinate
  difference x[receiver] - x[sender] and the spreading of a per-edge weight over the three coordinates are the same
  operations on both sides and are never opened. No finiteness is used.
-/
import proofs.«158914_j86208583565931_2_alg».proof.Proof.Gen.ReferenceIdeal.Read
import proofs.«158914_j86208583565931_2_alg».proof.Proof.Results
import proofs.«158914_j86208583565931_2_alg».proof.Proof.LibGatherLayer
import Idealize.ShloMosaic.PureOps.Ideal.Laws

noncomputable section

namespace Cert.ReferenceIdeal.RefValue

open Cert.ReferenceIdeal Cert.ReferenceIdeal.Read Idealize.ShloMosaic Idealize.ShloMosaic.ValueIdx
open Cert.Bridge Cert.Bridge.MessagePassing Cert.Bridge.RowGather

/-- An array of the zero word holds the real number zero everywhere (the feature accumulator's start). -/
theorem zeros64 (i : S50000x64.Idx) : val_main_v31 (F := Ideal) i = (0 : EReal) :=
  (val_main_v31_apply i).trans Ideal.ofBits_zero_f32

/-- The same for the coordinate accumulator's start. -/
theorem zeros3 (i : S50000x3.Idx) : val_main_v42 (F := Ideal) i = (0 : EReal) :=
  (val_main_v42_apply i).trans Ideal.ofBits_zero_f32

/-- The bias vector spread over the edges holds b[q] at (e, q). -/
theorem bias64 (x4 : FVec Ideal S64 .f32) (p : Fin 800000) (q : Fin 64) :
    val_main_v28 (F := Ideal) x4 (ix2 p q) = x4 (ix1 q) := by
  rw [val_main_v28_apply, val_main_v27_apply]
  refine congrArg x4 (funext fun a => ?_)
  match a with
  | ⟨0, _⟩ => rfl

/-- The one-entry bias spread over the edges holds b[0] at (e, 0). -/
theorem bias1 (x6 : FVec Ideal S1 .f32) (p : Fin 800000) (q : Fin 1) :
    val_main_v37 (F := Ideal) x6 (ix2 p q) = x6 (ix1 q) := by
  rw [val_main_v37_apply, val_main_v36_apply]
  refine congrArg x6 (funext fun a => ?_)
  match a with
  | ⟨0, _⟩ =>
    refine Fin.ext ?_
    have hq := q.isLt
    show 0 = q.val
    omega

/-- Each edge's message is the hidden layer of its sender's gathered feature row. -/
theorem edge_messages (x0 : FVec Ideal S50000x64 .f32) (x2 : IVec S2x800000 32) (x3 : FVec Ideal S64x64 .f32)
    (x4 : FVec Ideal S64 .f32) :
    val_main_v30 (F := Ideal) x0 x2 x3 x4 = LayerArray.rows (val_main_v10 (F := Ideal) x0 x2) x3 x4 := by
  unfold val_main_v30 val_main_v29 val_main_v26
  generalize val_main_v10 (F := Ideal) x0 x2 = G
  exact host_layer none .single G x3 (val_main_v28 (F := Ideal) x4) (val_main_call0_v0 (F := Ideal)) x4
    (bias64 x4) (fun j => (val_main_call0_v0_apply j).trans rfl)

/-- Each edge's weight is the hidden layer, at width one, of its sender's gathered feature row. -/
theorem edge_weights (x0 : FVec Ideal S50000x64 .f32) (x2 : IVec S2x800000 32) (x5 : FVec Ideal S64x1 .f32)
    (x6 : FVec Ideal S1 .f32) :
    val_main_v39 (F := Ideal) x0 x2 x5 x6 = LayerArray.rows (val_main_v10 (F := Ideal) x0 x2) x5 x6 := by
  unfold val_main_v39 val_main_v38 val_main_v35
  generalize val_main_v10 (F := Ideal) x0 x2 = G
  exact host_layer none .single G x5 (val_main_v37 (F := Ideal) x6) (val_main_call1_v0 (F := Ideal)) x6
    (bias1 x6) (fun j => (val_main_call1_v0_apply j).trans rfl)

/-- The reference's new features are the step's new features. -/
theorem features_eq (x0 : FVec Ideal S50000x64 .f32) (x2 : IVec S2x800000 32) (x3 : FVec Ideal S64x64 .f32)
    (x4 : FVec Ideal S64 .f32) :
    val_main_v34 (F := Ideal) x0 x2 x3 x4 = Cert.KernelIdeal.Results.newFeatures x0 x2 x3 x4 := by
  have hmsg : val_main_v30 (F := Ideal) x0 x2 x3 x4
      = Host.gather (rowDims 50000 64 800000 Facts₀.gather_S50000x64_S800000x1_S800000x64_1_0_n_n_0_1_164_wf)
          (LayerArray.rows x0 x3 x4) (val_main_v9 (F := Ideal) x2) :=
    (edge_messages x0 x2 x3 x4).trans
      (gather_layer (by decide) Facts₀.gather_S50000x64_S800000x1_S800000x64_1_0_n_n_0_1_164_wf
        Facts₀.gather_S50000x64_S800000x1_S800000x64_1_0_n_n_0_1_164_wf x0 x3 x4 (val_main_v9 (F := Ideal) x2)).symm
  unfold val_main_v34 val_main_v33
  rw [add_scatter_zero _ x0 (val_main_v31 (F := Ideal)) zeros64, hmsg]
  rfl

/-- The reference's new coordinates are the step's new coordinates. -/
theorem coords_eq (x0 : FVec Ideal S50000x64 .f32) (x1 : FVec Ideal S50000x3 .f32) (x2 : IVec S2x800000 32)
    (x5 : FVec Ideal S64x1 .f32) (x6 : FVec Ideal S1 .f32) :
    val_main_v45 (F := Ideal) x0 x1 x2 x5 x6 = Cert.KernelIdeal.Results.newCoords x0 x1 x2 x5 x6 := by
  have hwt : val_main_v39 (F := Ideal) x0 x2 x5 x6
      = Host.gather (rowDims 50000 1 800000 Cert.KernelIdeal.Facts₀.gather_S50000x1_S800000x1_S800000x1_1_0_n_n_0_1_11_wf)
          (LayerArray.rows x0 x5 x6) (val_main_v9 (F := Ideal) x2) :=
    (edge_weights x0 x2 x5 x6).trans
      (gather_layer (by decide) Cert.KernelIdeal.Facts₀.gather_S50000x1_S800000x1_S800000x1_1_0_n_n_0_1_11_wf
        Facts₀.gather_S50000x64_S800000x1_S800000x64_1_0_n_n_0_1_164_wf x0 x5 x6 (val_main_v9 (F := Ideal) x2)).symm
  unfold val_main_v45 val_main_v44
  rw [add_scatter_zero _ x1 (val_main_v42 (F := Ideal)) zeros3]
  unfold val_main_v41 val_main_v40
  rw [hwt]
  rfl

end Cert.ReferenceIdeal.RefValue

end
-- ==== Proof.lean ====
/-
  One message-passing step of an equivariant graph network, two ways, equal on the extended reals.

  Nodes carry features h (50000 by 64) and coordinates x (50000 by 3); the edge list gives each of 800000 edges a
  receiving node (row 0) and a sending node (row 1). The reference gathers each edge's sender features, runs two dense
  layers on the 800000 gathered rows (a 64-wide message and a scalar weight, each clamped below at zero), and adds to
  every node the sum, over its incoming edges, of the messages, and of the coordinate differences (receiver minus
  sender) scaled by the weights. The kernel runs the two layers ONCE PER NODE, in five blocks of 10000 rows, and
  gathers the results by sender afterwards. The two agree because row p of a dense layer depends on row p of its
  input alone, so the layer commutes with gathering rows; nothing needs finiteness, since every entry is the same sum
  on both sides. The accumulations differ in one place: the kernel reads a negative receiver index as counting from
  the end, the reference drops it. The precondition says every receiver index is non-negative, the range in which
  the reference's accumulation is defined; there the two read every index alike.

  The modules: LibMatmul, LibDenseLayer, LayerArray (a dense layer read at an entry, and as one array); LibRowGather
  (a row gather read at an entry); LibGatherLayer (the layer commutes with the gather; accumulating into zeros and
  adding is accumulating into the array; the host's layer as one array); Results (the step's two results as functions of the arguments); RowDomain
  (the precondition's index conjunct read back); NodeLayer (the region's two output arrays are the node-level
  layers); KernelEntry, KernelTailFeatures, KernelTailCoords, KernelValue (the kernel's run ends at the step's
  results); RefValue (so does the reference's). The three frames are the generated ones; the sanctioned idealization
  rewrote nothing.
-/
import proofs.«158914_j86208583565931_2_alg».proof.Defs
import proofs.«158914_j86208583565931_2_alg».proof.Proof.Gen.Kernel
import proofs.«158914_j86208583565931_2_alg».proof.Proof.Gen.Kernel.Frame
import proofs.«158914_j86208583565931_2_alg».proof.Proof.Gen.KernelIdeal
import proofs.«158914_j86208583565931_2_alg».proof.Proof.Gen.KernelIdeal.Frame
import proofs.«158914_j86208583565931_2_alg».proof.Proof.Gen.ReferenceIdeal
import proofs.«158914_j86208583565931_2_alg».proof.Proof.Gen.Pre_finite_inputs
import proofs.«158914_j86208583565931_2_alg».proof.Proof.Gen.ReferenceIdeal.Run
import proofs.«158914_j86208583565931_2_alg».proof.Proof.Gen.ReferenceIdeal.Read
import proofs.«158914_j86208583565931_2_alg».proof.Proof.KernelValue
import proofs.«158914_j86208583565931_2_alg».proof.Proof.RefValue
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference has no kernel: its frame is its run with the two results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- The idealization rewrote no operation, so there is nothing to preserve. -/
theorem preserves : Cert.preserves_Kernel_KernelIdeal := trivial

/-- From memories that agree on the arguments, both programs end with the step's new features and new coordinates
    of those arguments. -/
theorem algebraic : Cert.algebraic_KernelIdeal_ReferenceIdeal := by
  intro m ρ m' ρ' hpre hagree
  refine ⟨fun c => Cert.KernelIdeal.Results.newFeatures (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.KernelIdeal.Results.newCoords (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KernelValue.run m ρ hpre, ?_⟩
  refine (θ_run Cert.ReferenceIdeal.defs _ _).mono (fun _ h c => ?_)
    (Cert.ReferenceIdeal.Value.run (F := Ideal) m' ρ')
  obtain ⟨h34, h45, ha0, ha1, ha2, ha3, ha4, ha5, ha6⟩ := h c
  obtain ⟨e0, e1, e2, e3, e4, e5, e6⟩ := hagree c
  refine ⟨?_, ?_, ha0, ha1, ha2, ha3, ha4, ha5, ha6⟩
  · rw [h34, Cert.ReferenceIdeal.Read.val_main_v34_eq, Cert.ReferenceIdeal.RefValue.features_eq, e0, e2, e3, e4]
  · rw [h45, Cert.ReferenceIdeal.Read.val_main_v45_eq, Cert.ReferenceIdeal.RefValue.coords_eq, e0, e1, e2, e5, e6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
